-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S32x128x768 : Shape := ⟨3, ![32, 128, 768]⟩
abbrev S768x768 : Shape := ⟨2, ![768, 768]⟩
abbrev S768 : Shape := ⟨1, ![768]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel
  bcast_S_S32x128x768 : S_.BroadcastsInDim S32x128x768 (![] : Fin 0 → Fin S32x128x768.rank)
  reducesTo_S32x128x768_S_d0_1_2 : S32x128x768.ReducesTo [0, 1, 2] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S32x1024x768 .f32) (main_arg1 : FVec F S32x128x768 .f32) (main_arg2 : FVec F S768x768 .f32) (main_arg3 : FVec F S768 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S32x128x768 .f32 := Host.absf main_arg1
  let main_cst_0 : FVec F S_ .f32 := constant S_ .f32 0x7F800000#32
  let main_v5 : FVec F S32x128x768 .f32 := broadcastInDim S32x128x768 ![] bcast_S_S32x128x768 main_cst_0
  let main_v6 : IVec S32x128x768 1 := cmpf .olt main_v4 main_v5
  let main_c_1 : IVec S_ 1 := constantI S_ 1 1#1
  let main_v7 : IVec S_ 1 := (fun x v => Host.reduce IntOp.andi x v reducesTo_S32x128x768_S_d0_1_2 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S32x1024x768 : Shape := ⟨3, ![32, 1024, 768]⟩
abbrev S32x128x768 : Shape := ⟨3, ![32, 128, 768]⟩
abbrev S768x768 : Shape := ⟨2, ![768, 768]⟩
abbrev S768 : Shape := ⟨1, ![768]⟩
abbrev S1x768 : Shape := ⟨2, ![1, 768]⟩
abbrev S1x1024x768 : Shape := ⟨3, ![1, 1024, 768]⟩
abbrev S1x128x768 : Shape := ⟨3, ![1, 128, 768]⟩
abbrev S1024x768 : Shape := ⟨2, ![1024, 768]⟩
abbrev S128x768 : Shape := ⟨2, ![128, 768]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S32x1024x768, .f32⟩
  | .hbm, ⟨1, _⟩ => ⟨S32x128x768, .f32⟩
  | .hbm, ⟨2, _⟩ => ⟨S768x768, .f32⟩
  | .hbm, ⟨3, _⟩ => ⟨S768, .f32⟩
  | .hbm, ⟨4, _⟩ => ⟨S1x768, .f32⟩
  | .hbm, ⟨5, _⟩ => ⟨S32x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S1x128x768, .f32⟩
  | .local _ .vmem, ⟨3, _⟩ => ⟨S1x128x768, .f32⟩
  | .local _ .vmem, ⟨4, _⟩ => ⟨S768x768, .f32⟩
  | .local _ .vmem, ⟨5, _⟩ => ⟨S1x768, .f32⟩
  | .local _ .vmem, ⟨6, _⟩ => ⟨S1x1024x768, .f32⟩
  | .local _ .vmem, ⟨7, _⟩ => ⟨S1x1024x768, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S768_S1x768 : S768.ShapeCasts S1x768
  inb_S768x768_S768x768_0_0 : ∀ a, (![0, 0] : Fin 2 → Nat) a + S768x768.size a ≤ S768x768.size a
  h_S768x768 : 0 < S768x768.numel
  bitsLt_bf16_f32 : FTy.bits .bf16 < FTy.bits .f32
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  broadcasts_S1x768_S1024x768 : S1x768.Broadcasts S1024x768
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  broadcasts_S1x768_S128x768 : S1x768.Broadcasts S128x768
  reduces_S1024x128_S1024 : S1024x128.Reduces [1] S1024
  shapeCasts_S1024_S1024x1 : S1024.ShapeCasts S1024x1
  broadcasts_S1024x1_S1024x128 : S1024x1.Broadcasts S1024x128
  shapeCasts_S1024x768_S1x1024x768 : S1024x768.ShapeCasts S1x1024x768
  dot_S1024x768_S768x768_S1024x768_1_1_0_0_n_n_wf : DotDims.WF S1024x768 S768x768 S1024x768 [1] [1] [0] [0] [] []
  dot_S128x768_S768x768_S128x768_1_1_0_0_n_n_wf : DotDims.WF S128x768 S768x768 S128x768 [1] [1] [0] [0] [] []
  dot_S1024x768_S128x768_S1024x128_1_1_0_0_n_n_wf : DotDims.WF S1024x768 S128x768 S1024x128 [1] [1] [0] [0] [] []
  dot_S1024x128_S128x768_S1024x768_1_0_0_1_n_n_wf : DotDims.WF S1024x128 S128x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S32x1024x768.size a
  hwx0_0 : ∀ i : grid0.Coords, EltTy.bits .f32 = 32 ∨ (Rect.block (s := S32x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x768.size a ≤ S32x128x768.size a
  hwx0_1 : ∀ i : grid0.Coords, EltTy.bits .f32 = 32 ∨ (Rect.block (s := S32x128x768) S1x128x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x768.size a ≤ S32x1024x768.size a
  hwx0_4 : ∀ i : grid0.Coords, EltTy.bits .f32 = 32 ∨ (Rect.block (s := S32x1024x768) S1x1024x768.size (cc0_transform_4 i) (hinb0_4 i)).WholeWords (EltTy.packing .f32)

variable [Facts₀]

def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf
def dot_S128x768_S768x768_S128x768_1_1_0_0_n_n : DotDims S128x768 S768x768 S128x768 where
  lhsContracting := [1]
  rhsContracting := [1]
  lhsNonContracting := [0]
  rhsNonContracting := [0]
  lhsBatch := []
  rhsBatch := []
  wf := dot_S128x768_S768x768_S128x768_1_1_0_0_n_n_wf
def dot_S1024x768_S128x768_S1024x128_1_1_0_0_n_n : DotDims S1024x768 S128x768 S1024x128 where
  lhsContracting := [1]
  rhsContracting := [1]
  lhsNonContracting := [0]
  rhsNonContracting := [0]
  lhsBatch := []
  rhsBatch := []
  wf := dot_S1024x768_S128x768_S1024x128_1_1_0_0_n_n_wf
def dot_S1024x128_S128x768_S1024x768_1_0_0_1_n_n : DotDims S1024x128 S128x768 S1024x768 where
  lhsContracting := [1]
  rhsContracting := [0]
  lhsNonContracting := [0]
  rhsNonContracting := [1]
  lhsBatch := []
  rhsBatch := []
  wf := dot_S1024x128_S128x768_S1024x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x768 : Shape := ⟨3, ![32, 1024, 768]⟩
abbrev S32x128x768 : Shape := ⟨3, ![32, 128, 768]⟩
abbrev S768x768 : Shape := ⟨2, ![768, 768]⟩
abbrev S768 : Shape := ⟨1, ![768]⟩
abbrev S1x1x768 : Shape := ⟨3, ![1, 1, 768]⟩
abbrev S_ : Shape := ⟨0, ![]⟩
abbrev S32x1024x128 : Shape := ⟨3, ![32, 1024, 128]⟩
abbrev S32x1024 : Shape := ⟨2, ![32, 1024]⟩
abbrev S32x1024x1 : Shape := ⟨3, ![32, 1024, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S32x128x768, .f32⟩
  | .hbm, ⟨2, _⟩ => ⟨S768x768, .f32⟩
  | .hbm, ⟨3, _⟩ => ⟨S768, .f32⟩
  | .hbm, ⟨4, _⟩ => ⟨S32x1024x768, .f32⟩
  | .hbm, ⟨5, _⟩ => ⟨S1x1x768, .f32⟩
  | .hbm, ⟨6, _⟩ => ⟨S32x1024x768, .f32⟩
  | .hbm, ⟨7, _⟩ => ⟨S32x1024x768, .f32⟩
  | .hbm, ⟨8, _⟩ => ⟨S_, .f32⟩
  | .hbm, ⟨9, _⟩ => ⟨S32x1024x768, .f32⟩
  | .hbm, ⟨10, _⟩ => ⟨S32x1024x768, .f32⟩
  | .hbm, ⟨11, _⟩ => ⟨S32x128x768, .f32⟩
  | .hbm, ⟨12, _⟩ => ⟨S1x1x768, .f32⟩
  | .hbm, ⟨13, _⟩ => ⟨S32x128x768, .f32⟩
  | .hbm, ⟨14, _⟩ => ⟨S32x128x768, .f32⟩
  | .hbm, ⟨15, _⟩ => ⟨S_, .f32⟩
  | .hbm, ⟨16, _⟩ => ⟨S32x128x768, .f32⟩
  | .hbm, ⟨17, _⟩ => ⟨S32x128x768, .f32⟩
  | .hbm, ⟨18, _⟩ => ⟨S32x1024x128, .f32⟩
  | .hbm, ⟨19, _⟩ => ⟨S_, .f32⟩
  | .hbm, ⟨20, _⟩ => ⟨S32x1024, .f32⟩
  | .hbm, ⟨21, _⟩ => ⟨S_, .f32⟩
  | .hbm, ⟨22, _⟩ => ⟨S32x1024, .f32⟩
  | .hbm, ⟨23, _⟩ => ⟨S32x1024, .f32⟩
  | .hbm, ⟨24, _⟩ => ⟨S32x1024x1, .f32⟩
  | .hbm, ⟨25, _⟩ => ⟨S32x1024x128, .f32⟩
  | .hbm, ⟨26, _⟩ => ⟨S32x1024x128, .f32⟩
  | .hbm, ⟨27, _⟩ => ⟨S32x1024x128, .f32⟩
  | .hbm, ⟨28, _⟩ => ⟨S_, .f32⟩
  | .hbm, ⟨29, _⟩ => ⟨S32x1024, .f32⟩
  | .hbm, ⟨30, _⟩ => ⟨S32x1024x1, .f32⟩
  | .hbm, ⟨31, _⟩ => ⟨S32x1024x128, .f32⟩
  | .hbm, ⟨32, _⟩ => ⟨S32x1024x128, .f32⟩
  | .hbm, ⟨33, _⟩ => ⟨S32x1024x768, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call1_cst : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S32x1024x768_0_1_2 : S1x1x768.BroadcastsInDim S32x1024x768 (![0, 1, 2] : Fin 3 → Fin S32x1024x768.rank)
  bcast_S_S32x1024x768 : S_.BroadcastsInDim S32x1024x768 (![] : Fin 0 → Fin S32x1024x768.rank)
  bcast_S1x1x768_S32x128x768_0_1_2 : S1x1x768.BroadcastsInDim S32x128x768 (![0, 1, 2] : Fin 3 → Fin S32x128x768.rank)
  bcast_S_S32x128x768 : S_.BroadcastsInDim S32x128x768 (![] : Fin 0 → Fin S32x128x768.rank)
  reducesTo_S32x1024x128_S32x1024_d2 : S32x1024x128.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x128_0_1_2 : S32x1024x1.BroadcastsInDim S32x1024x128 (![0, 1, 2] : Fin 3 → Fin S32x1024x128.rank)
  dot_S32x1024x768_S768x768_S32x1024x768_2_1_01_0_n_n_wf : DotDims.WF S32x1024x768 S768x768 S32x1024x768 [2] [1] [0, 1] [0] [] []
  dot_S32x128x768_S768x768_S32x128x768_2_1_01_0_n_n_wf : DotDims.WF S32x128x768 S768x768 S32x128x768 [2] [1] [0, 1] [0] [] []
  dot_S32x1024x768_S32x128x768_S32x1024x128_2_2_1_1_0_0_wf : DotDims.WF S32x1024x768 S32x128x768 S32x1024x128 [2] [2] [1] [1] [0] [0]
  dot_S32x1024x128_S32x128x768_S32x1024x768_2_1_1_2_0_0_wf : DotDims.WF S32x1024x128 S32x128x768 S32x1024x768 [2] [1] [1] [2] [0] [0]

variable [Facts₀]

def dot_S32x1024x768_S768x768_S32x1024x768_2_1_01_0_n_n : DotDims S32x1024x768 S768x768 S32x1024x768 where
  lhsContracting := [2]
  rhsContracting := [1]
  lhsNonContracting := [0, 1]
  rhsNonContracting := [0]
  lhsBatch := []
  rhsBatch := []
  wf := dot_S32x1024x768_S768x768_S32x1024x768_2_1_01_0_n_n_wf
def dot_S32x128x768_S768x768_S32x128x768_2_1_01_0_n_n : DotDims S32x128x768 S768x768 S32x128x768 where
  lhsContracting := [2]
  rhsContracting := [1]
  lhsNonContracting := [0, 1]
  rhsNonContracting := [0]
  lhsBatch := []
  rhsBatch := []
  wf := dot_S32x128x768_S768x768_S32x128x768_2_1_01_0_n_n_wf
def dot_S32x1024x768_S32x128x768_S32x1024x128_2_2_1_1_0_0 : DotDims S32x1024x768 S32x128x768 S32x1024x128 where
  lhsContracting := [2]
  rhsContracting := [2]
  lhsNonContracting := [1]
  rhsNonContracting := [1]
  lhsBatch := [0]
  rhsBatch := [0]
  wf := dot_S32x1024x768_S32x128x768_S32x1024x128_2_2_1_1_0_0_wf
def dot_S32x1024x128_S32x128x768_S32x1024x768_2_1_1_2_0_0 : DotDims S32x1024x128 S32x128x768 S32x1024x768 where
  lhsContracting := [2]
  rhsContracting := [1]
  lhsNonContracting := [1]
  rhsNonContracting := [2]
  lhsBatch := [0]
  rhsBatch := [0]
  wf := dot_S32x1024x128_S32x128x768_S32x1024x768_2_1_1_2_0_0_wf

class Facts : Prop extends Facts₀ where

variable [Facts]
-- ==== Proof.CrossAttention.lean ====
/-
  The function both programs compute, one entry at a time, over the extended reals.

  A batch element holds 1024 document tokens and 128 query tokens, each a vector of 768 numbers. One layer, shared by
  both kinds of token, sends a token `x` to `max (W x + bias) 0`. The score of a document token against a query token
  is the inner product of their images under that layer. A document token's row of 128 scores is turned into weights
  by the shifted exponential — `exp (s q - M)` with `M` the row's largest score — divided by the sum of the row's
  shifted exponentials, and the token's output is the weighted sum of the query tokens themselves.

  Nothing here is simplified: the maximum is folded from `-∞` and taken against `-∞` once more, the clamp compares
  with the f32 zero, exactly as both programs spell them, so that each program is read into this form without a law
  of the extended reals beyond `0 + x = x`.
-/
import Idealize.ShloMosaic.PureOps.Ideal
import Idealize.ShloMosaic.Lib.ValueIdx

noncomputable section

open scoped BigOperators

namespace Cert.CrossAttention

open Idealize.ShloMosaic Idealize.ShloMosaic.ValueIdx

/-- The zero the clamp compares with. -/
abbrev zero32 : EReal := Ideal.ofBits .f32 0x00000000#32
/-- `-∞`, where a running maximum starts. -/
abbrev ninf32 : EReal := Ideal.ofBits .f32 0xFF800000#32

/-- Coordinate `h` of the shared layer applied to a token `x`: `max (⟨x, W h⟩ + bias h) 0`. -/
def hidden (W : Fin 768 → Fin 768 → EReal) (bias : Fin 768 → EReal) (x : Fin 768 → EReal) (h : Fin 768) : EReal :=
  max ((∑ e : Fin 768, x e * W h e) + bias h) zero32

/-- The score of two hidden vectors: their inner product. -/
def score (u v : Fin 768 → EReal) : EReal := ∑ h : Fin 768, u h * v h

/-- The largest of a row of 128 scores, folded from `-∞` and taken against `-∞` once more. -/
def rowMax (s : Fin 128 → EReal) : EReal := max ninf32 ((Finset.univ : Finset (Fin 128)).fold max ninf32 s)

/-- The shifted exponential of the score at `q`. -/
def shifted (s : Fin 128 → EReal) (q : Fin 128) : EReal := Ideal.exp (s q - rowMax s)

/-- The weight of query token `q` in a row of scores: its shifted exponential over the row's sum of them. -/
def weight (s : Fin 128 → EReal) (q : Fin 128) : EReal := Ideal.div (shifted s q) (∑ q' : Fin 128, shifted s q')

/-- The row of scores of a document token `x` against the query tokens `Q`. -/
def scores (W : Fin 768 → Fin 768 → EReal) (bias : Fin 768 → EReal) (x : Fin 768 → EReal) (Q : Fin 128 → Fin 768 → EReal)
    (q : Fin 128) : EReal :=
  score (hidden W bias x) (hidden W bias (Q q))

/-- Entry `e` of the output of a document token `x` attending over the query tokens `Q`. -/
def attend (W : Fin 768 → Fin 768 → EReal) (bias : Fin 768 → EReal) (x : Fin 768 → EReal) (Q : Fin 128 → Fin 768 → EReal)
    (e : Fin 768) : EReal :=
  ∑ q : Fin 128, weight (scores W bias x Q) q * Q q e

/-- The weight matrix by coordinates: row `h` holds the weights of hidden coordinate `h`. -/
abbrev weights (W : (⟨2, ![768, 768]⟩ : Shape).Idx → EReal) : Fin 768 → Fin 768 → EReal := fun h k => W (ix2 h k)
/-- The bias vector by coordinates. -/
abbrev biases (bias : (⟨1, ![768]⟩ : Shape).Idx → EReal) : Fin 768 → EReal := fun h => bias (ix1 h)
/-- Document token `d` of batch element `n`. -/
abbrev docToken (doc : (⟨3, ![32, 1024, 768]⟩ : Shape).Idx → EReal) (n : Fin 32) (d : Fin 1024) : Fin 768 → EReal :=
  fun k => doc (ix3 n d k)
/-- The query tokens of batch element `n`. -/
abbrev qryTokens (qry : (⟨3, ![32, 128, 768]⟩ : Shape).Idx → EReal) (n : Fin 32) : Fin 128 → Fin 768 → EReal :=
  fun q k => qry (ix3 n q k)

/-- The result at batch element `n`, document token `d`, entry `e`, from the four argument arrays. -/
def resultAt (doc : (⟨3, ![32, 1024, 768]⟩ : Shape).Idx → EReal) (qry : (⟨3, ![32, 128, 768]⟩ : Shape).Idx → EReal)
    (W : (⟨2, ![768, 768]⟩ : Shape).Idx → EReal) (bias : (⟨1, ![768]⟩ : Shape).Idx → EReal)
    (n : Fin 32) (d : Fin 1024) (e : Fin 768) : EReal :=
  attend (weights W) (biases bias) (docToken doc n d) (qryTokens qry n) e

/-- The whole result array. -/
def result (doc : (⟨3, ![32, 1024, 768]⟩ : Shape).Idx → EReal) (qry : (⟨3, ![32, 128, 768]⟩ : Shape).Idx → EReal)
    (W : (⟨2, ![768, 768]⟩ : Shape).Idx → EReal) (bias : (⟨1, ![768]⟩ : Shape).Idx → EReal) :
    (⟨3, ![32, 1024, 768]⟩ : Shape).Idx → EReal :=
  fun i => resultAt doc qry W bias (i 0) (i 1) (i 2)

theorem result_ix3 (doc : (⟨3, ![32, 1024, 768]⟩ : Shape).Idx → EReal) (qry : (⟨3, ![32, 128, 768]⟩ : Shape).Idx → EReal)
    (W : (⟨2, ![768, 768]⟩ : Shape).Idx → EReal) (bias : (⟨1, ![768]⟩ : Shape).Idx → EReal)
    (n : Fin 32) (d : Fin 1024) (e : Fin 768) :
    result doc qry W bias (ix3 n d e) = resultAt doc qry W bias n d e := rfl

end Cert.CrossAttention

end
-- ==== Proof.LibRowDots.lean ====
/-
  Reads at an index, at the ideal values (floats are extended reals), of what an attention block adds to the plain
  row-wise operations, stated for any extents with every index written by coordinates:

  * a product of two rank-2 arrays along their SECOND axes, `[A, K] × [B, K] → [A, B]` — every row of the left operand
    against every row of the right one, as a `tpu.matmul` into the zero accumulator computes it —, read at `(i, c)`, is
    the sum over `k` of `l (i, k) * r (c, k)`;
  * a reduction of a rank-2 array along its rows, `[A, B] → [A]`, read at `p`: by sum, the sum over `k` of the entry
    at `(p, k)`; by maximum, the fold of `max` over them from the accumulator's value;
  * the host's reduction of a rank-3 array along its last axis with a maximum body, `[N, A, B] → [N, A]`, read at
    `(n, p)`: the fold of `max` over `k` of the entry at `(n, p, k)`, from the initial value;
  * an index of rank one, two or three is determined by the values of its coordinates.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Idealize.ShloMosaic.RowDots

open Idealize.ShloMosaic Idealize.ShloMosaic.ValueIdx

/-! ## An index from the values of its coordinates -/

/-- A rank-1 index whose coordinate has the value of `a` is `ix1 a`. -/
theorem idx1_ext {n0 : Nat} (j : (⟨1, ![n0]⟩ : Shape).Idx) (a : Fin n0) (h0 : (j 0).val = a.val) : j = ix1 a :=
  funext fun c => Fin.ext (by match c with | ⟨0, _⟩ => exact h0)

/-- A rank-2 index whose coordinates have the values of `a` and `b` is `ix2 a b`. -/
theorem idx2_ext {n0 n1 : Nat} (j : (⟨2, ![n0, n1]⟩ : Shape).Idx) (a : Fin n0) (b : Fin n1)
    (h0 : (j 0).val = a.val) (h1 : (j 1).val = b.val) : j = ix2 a b :=
  funext fun c => Fin.ext (by match c with | ⟨0, _⟩ => exact h0 | ⟨1, _⟩ => exact h1)

/-- A rank-3 index whose coordinates have the values of `a`, `b` and `c` is `ix3 a b c`. -/
theorem idx3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun e => Fin.ext (by match e with | ⟨0, _⟩ => exact h0 | ⟨1, _⟩ => exact h1 | ⟨2, _⟩ => exact h2)

/-! ## Rows against rows -/

/-- The dimension numbers of `[A, K] × [B, K] → [A, B]`: both operands' axis 1 contracted, no batch axis. -/
abbrev rowsDims {A K B : Nat}
    (wf : DotDims.WF (⟨2, ![A, K]⟩ : Shape) ⟨2, ![B, K]⟩ ⟨2, ![A, B]⟩ [1] [1] [0] [0] [] []) :
    DotDims (⟨2, ![A, K]⟩ : Shape) ⟨2, ![B, K]⟩ ⟨2, ![A, B]⟩ :=
  ⟨[1], [1], [0], [0], [], [], wf⟩

/-- Off the contracted axis the left operand's index is the result's row. -/
theorem rows_lhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column. -/
theorem rows_rhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).rhsIdx j q 0).val = (j 1).val := by
  unfold DotDims.rhsIdx
  rw [dif_neg (show ¬(0 : Fin 2) ∈ ([] : List (Fin 2)) from List.not_mem_nil),
    dif_pos (show (0 : Fin 2) ∈ ([0] : List (Fin 2)) from List.mem_singleton.mpr rfl)]
  rfl

/-- The contraction sum of a rows-against-rows product, re-indexed by the contracted coordinate: at `j = (i, c)` the
    left operand is read along its row `i`, the right one along its row `c`. -/
theorem rowsDot_sum {A K B : Nat} (d : DotDims (⟨2, ![A, K]⟩ : Shape) ⟨2, ![B, K]⟩ ⟨2, ![A, B]⟩)
    (hd : ∃ wf, d = rowsDims wf)
    (l : (⟨2, ![A, K]⟩ : Shape).Idx → EReal) (r : (⟨2, ![B, K]⟩ : Shape).Idx → EReal) (j : (⟨2, ![A, B]⟩ : Shape).Idx) :
    ∑ k : d.contr.Idx, l (d.lhsIdx j k) * r (d.rhsIdx j k) = ∑ k : Fin K, l (ix2 (j 0) k) * r (ix2 (j 1) k) := by
  obtain ⟨wf, rfl⟩ := hd
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx j ((contrEquiv1 (rowsDims wf) K rfl rfl).symm k) = ix2 (j 0) k :=
    idx2_ext _ _ _ (rows_lhs0 wf j _) (((rowsDims wf).lhsIdx_val_of_single (cl := 1) rfl j _).trans hk)
  have er : (rowsDims wf).rhsIdx j ((contrEquiv1 (rowsDims wf) K rfl rfl).symm k) = ix2 (j 1) k :=
    idx2_ext _ _ _ (rows_rhs0 wf j _) (((rowsDims wf).rhsIdx_val_of_single (cr := 1) rfl j _).trans hk)
  rw [el, er]
  rfl

/-- A `tpu.matmul` of rows against rows into the zero accumulator, read at `(i, c)`: the sum over `k` of
    `l (i, k) * r (c, k)`. -/
theorem matmul_zero_rows_apply {A K B : Nat} {φ₁ φ₂ : FTy} (d : DotDims (⟨2, ![A, K]⟩ : Shape) ⟨2, ![B, K]⟩ ⟨2, ![A, B]⟩)
    (hd : ∃ wf, d = rowsDims wf) (prec : Option ContractPrecision)
    (l : FVec Ideal (⟨2, ![A, K]⟩ : Shape) φ₁) (r : FVec Ideal (⟨2, ![B, K]⟩ : Shape) φ₂) (i : Fin A) (c : Fin B) :
    FloatOps.matmul d prec l r (constant (⟨2, ![A, B]⟩ : Shape) .f32 0x00000000#32) (ix2 i c)
      = ∑ k : Fin K, l (ix2 i k) * r (ix2 c k) := by
  rw [Ideal.matmul_constant_zero_apply]
  exact rowsDot_sum d hd l r (ix2 i c)

/-! ## Reductions along the rows -/

/-- The reduced index `p` of `[A, B] → [A]` with the column `k` put back is `(p, k)`. -/
theorem lift_row {A B : Nat} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) :=
  idx2_ext _ _ _ rfl rfl

/-- A float `vector.multi_reduction <add>` along the rows, read at `p`: the sum of row `p`. -/
theorem rowSum_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ) (hacc : acc = FKind.add.neutral φ hφ)
    (p : Fin A) :
    multiReduction .add [1] (⟨1, ![A]⟩ : Shape) src acc h hφ hacc (ix1 p) = ∑ k : Fin B, src (ix2 p k) := by
  rw [Ideal.multiReduction_add_single]
  exact Finset.sum_congr rfl fun k _ => congrArg src (lift_row h p k)

/-- A float `vector.multi_reduction <maximumf>` along the rows, read at `p`: the fold of `max` over row `p`, from the
    accumulator's value. -/
theorem rowMax_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ)
    (hacc : acc = FKind.maximumf.neutral φ hφ) (p : Fin A) :
    multiReduction .maximumf [1] (⟨1, ![A]⟩ : Shape) src acc h hφ hacc (ix1 p)
      = (Finset.univ : Finset (Fin B)).fold max (Ideal.ofBits φ acc) (fun k => src (ix2 p k)) := by
  rw [Ideal.multiReduction_maximumf_single]
  exact congrArg (fun f => Finset.fold max (Ideal.ofBits φ acc) f (Finset.univ : Finset (Fin B)))
    (funext fun k => congrArg src (lift_row h p k))

/-- The reduced index `(n, p)` of `[N, A, B] → [N, A]` with the last coordinate `k` put back is `(n, p, k)`. -/
theorem lift_last3 {N A B : Nat} (h : (⟨3, ![N, A, B]⟩ : Shape).Reduces [2] (⟨2, ![N, A]⟩ : Shape)) (n : Fin N) (p : Fin A)
    (k : Fin ((⟨3, ![N, A, B]⟩ : Shape).size 2)) : h.lift (ix2 n p) k = ix3 n p (⟨k.val, k.isLt⟩ : Fin B) :=
  idx3_ext _ _ _ _ rfl rfl rfl

/-- The host's one-operand `stablehlo.reduce` with a maximum body along the last axis of a rank-3 array, read at
    `(n, p)`: the fold of `max` over `k` of the entry at `(n, p, k)`, from the initial value. -/
theorem hostReduceMax_last3_apply {N A B : Nat} {φ : FTy} {u : Shape} (x : FVec Ideal (⟨3, ![N, A, B]⟩ : Shape) φ)
    (init : u.Idx → Ideal φ) (h' : (⟨3, ![N, A, B]⟩ : Shape).ReducesTo [2] (⟨2, ![N, A]⟩ : Shape))
    (h : (⟨3, ![N, A, B]⟩ : Shape).Reduces [2] (⟨2, ![N, A]⟩ : Shape)) (hu : 0 < u.numel) (n : Fin N) (p : Fin A) :
    Host.reduce FloatOps.maximumf x init h' hu (ix2 n p)
      = (Finset.univ : Finset (Fin B)).fold max (init (Shape.Idx.first hu)) (fun k => x (ix3 n p k)) := by
  rw [Host.reduce_eq_fold_single FloatOps.maximumf x init h' h hu]
  exact congrArg (fun f => Finset.fold max (init (Shape.Idx.first hu)) f (Finset.univ : Finset (Fin B)))
    (funext fun k => congrArg x (lift_last3 h n p k))

end Idealize.ShloMosaic.RowDots

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BodyReads.lean ====
/-
  The kernel's body at one grid point, read at an index into the shared function (CrossAttention.lean).

  At a point the body holds one batch element: the document tokens as a `[1, 1024, 768]` block, the query tokens as
  a `[1, 128, 768]` block, the whole weight matrix and the bias as one row. It drops the unit axis, sends both kinds of
  token through the layer (a product of rows against the weight matrix's rows, the bias row repeated down the block,
  the clamp), multiplies the two hidden blocks rows against rows into the `[1024, 128]` block of scores, and
  normalises each row: the row's maximum and the row's sum are each cast to a column and repeated along the row.
  The weights block times the query block, with the unit axis put back, is what the body stores. Narrowing to bf16
  before each product changes nothing on extended reals.
-/
import proofs.«105087_j68616397521540_1_alg».proof.Proof.Gen.KernelIdeal.Skeleton
import proofs.«105087_j68616397521540_1_alg».proof.Proof.CrossAttention
import proofs.«105087_j68616397521540_1_alg».proof.Proof.LibRowDots
import proofs.«105087_j68616397521540_1_alg».proof.Proof.LibRowOps
import proofs.«105087_j68616397521540_1_alg».proof.Proof.LibColumns
import Idealize.ShloMosaic.Lib.ValueLayout
import Idealize.ShloMosaic.Lib.Pipeline.Value

noncomputable section

open scoped BigOperators

namespace Cert.KernelIdeal.Body

open Cert.KernelIdeal Cert.KernelIdeal.Gen Cert.CrossAttention
open Idealize.ShloMosaic Idealize.ShloMosaic.ValueIdx Idealize.ShloMosaic.RowDots

/-! ## The layer on a block of rows -/

/-- A block of `R` tokens through the layer, as the body spells it — rows against the weight matrix's rows into the
    zero accumulator, plus the bias row repeated down the block, clamped at zero —, read at `(r, h)`: coordinate `h` of
    the layer applied to row `r`. -/
theorem layer_rows_apply {R : ℕ} (d : DotDims (⟨2, ![R, 768]⟩ : Shape) (⟨2, ![768, 768]⟩ : Shape) (⟨2, ![R, 768]⟩ : Shape))
    (hd : ∃ wf, d = rowsDims wf) (X : FVec Ideal (⟨2, ![R, 768]⟩ : Shape) .f32) (Wv : FVec Ideal (⟨2, ![768, 768]⟩ : Shape) .f32)
    (bv : FVec Ideal (⟨2, ![1, 768]⟩ : Shape) .f32) (hlt : FTy.bf16.bits < FTy.f32.bits)
    (hb : (⟨2, ![1, 768]⟩ : Shape).Broadcasts (⟨2, ![R, 768]⟩ : Shape)) (r : Fin R) (h : Fin 768) :
    maximumf (addf (matmul d none (truncf .bf16 X hlt) (truncf .bf16 Wv hlt) (constant (⟨2, ![R, 768]⟩ : Shape) .f32 0x00000000#32))
        (broadcastTo (⟨2, ![R, 768]⟩ : Shape) bv hb))
      (broadcast (⟨2, ![R, 768]⟩ : Shape) (Scalar.ofBits (F := Ideal) .f32 0x00000000#32)) (ix2 r h)
      = hidden (fun h k => Wv (ix2 h k)) (fun h => bv (ix2 (0 : Fin 1) h)) (fun k => X (ix2 r k)) h := by
  rw [maximumf_apply, addf_apply, broadcastTo_1b_ab_apply]
  unfold matmul
  rw [matmul_zero_rows_apply d hd]
  rfl

variable (v0 : Vec Ideal S768x768 .f32) (v2 : Vec Ideal S1x768 .f32) (v4 : Vec Ideal S1x1024x768 .f32)
  (v12 : Vec Ideal S1x128x768 .f32)

/-- The document tokens' hidden block. -/
def docHidden : FVec Ideal S1024x768 .f32 :=
  maximumf (addf (matmul dot_S1024x768_S768x768_S1024x768_1_1_0_0_n_n none
        (truncf .bf16 (shapeCast S1024x768 v4 shapeCasts_S1x1024x768_S1024x768) bitsLt_bf16_f32) (truncf .bf16 v0 bitsLt_bf16_f32)
        (constant S1024x768 .f32 0x00000000#32))
      (broadcastTo S1024x768 (shapeCast S1x768 v2 shapeCasts_S1x768_S1x768) broadcasts_S1x768_S1024x768))
    (broadcast S1024x768 (Scalar.ofBits (F := Ideal) .f32 0x00000000#32))

/-- The query tokens' hidden block. -/
def qryHidden : FVec Ideal S128x768 .f32 :=
  maximumf (addf (matmul dot_S128x768_S768x768_S128x768_1_1_0_0_n_n none
        (truncf .bf16 (shapeCast S128x768 v12 shapeCasts_S1x128x768_S128x768) bitsLt_bf16_f32) (truncf .bf16 v0 bitsLt_bf16_f32)
        (constant S128x768 .f32 0x00000000#32))
      (broadcastTo S128x768 (shapeCast S1x768 v2 shapeCasts_S1x768_S1x768) broadcasts_S1x768_S128x768))
    (broadcast S128x768 (Scalar.ofBits (F := Ideal) .f32 0x00000000#32))

/-- The block of scores: the document tokens' hidden rows against the query tokens' hidden rows. -/
def scoreBlock : FVec Ideal S1024x128 .f32 :=
  matmul dot_S1024x768_S128x768_S1024x128_1_1_0_0_n_n none (truncf .bf16 (docHidden v0 v2 v4) bitsLt_bf16_f32)
    (truncf .bf16 (qryHidden v0 v2 v12) bitsLt_bf16_f32) (constant S1024x128 .f32 0x00000000#32)

theorem docHidden_apply (d : Fin 1024) (h : Fin 768) :
    docHidden v0 v2 v4 (ix2 d h)
      = hidden (fun h k => v0 (ix2 h k)) (fun h => v2 (ix2 (0 : Fin 1) h)) (fun k => v4 (ix3 (0 : Fin 1) d k)) h := by
  unfold docHidden
  rw [layer_rows_apply dot_S1024x768_S768x768_S1024x768_1_1_0_0_n_n ⟨_, rfl⟩]
  simp only [shapeCast_self, shapeCast_1ab_ab_apply]

theorem qryHidden_apply (q : Fin 128) (h : Fin 768) :
    qryHidden v0 v2 v12 (ix2 q h)
      = hidden (fun h k => v0 (ix2 h k)) (fun h => v2 (ix2 (0 : Fin 1) h)) (fun k => v12 (ix3 (0 : Fin 1) q k)) h := by
  unfold qryHidden
  rw [layer_rows_apply dot_S128x768_S768x768_S128x768_1_1_0_0_n_n ⟨_, rfl⟩]
  simp only [shapeCast_self, shapeCast_1ab_ab_apply]

/-- The block of scores at `(d, q)`: document token `d` against query token `q`. -/
theorem scoreBlock_apply (d : Fin 1024) (q : Fin 128) :
    scoreBlock v0 v2 v4 v12 (ix2 d q)
      = scores (fun h k => v0 (ix2 h k)) (fun h => v2 (ix2 (0 : Fin 1) h)) (fun k => v4 (ix3 (0 : Fin 1) d k))
          (fun q k => v12 (ix3 (0 : Fin 1) q k)) q := by
  unfold scoreBlock matmul
  rw [matmul_zero_rows_apply dot_S1024x768_S128x768_S1024x128_1_1_0_0_n_n ⟨_, rfl⟩]
  unfold scores score
  refine Finset.sum_congr rfl fun k _ => ?_
  rw [truncf_apply, truncf_apply, docHidden_apply, qryHidden_apply]

/-! ## Each row of scores normalised -/

variable (S : FVec Ideal S1024x128 .f32)

/-- The rows' maxima, taken against `-∞` once more. -/
def rowTop : FVec Ideal S1024 .f32 :=
  maximumf (broadcast S1024 (Scalar.ofBits (F := Ideal) .f32 0xFF800000#32))
    (multiReduction .maximumf [1] S1024 S 0xFF800000#32 reduces_S1024x128_S1024 (.inl rfl) rfl)

/-- The shifted exponentials: each score less its row's maximum, the maximum cast to a column and repeated along the row. -/
def shiftedExp : FVec Ideal S1024x128 .f32 :=
  exp (subf S (broadcastTo S1024x128 (shapeCast S1024x1 (rowTop S) shapeCasts_S1024_S1024x1) broadcasts_S1024x1_S1024x128))

/-- The rows' sums of shifted exponentials. -/
def rowTotal : FVec Ideal S1024 .f32 :=
  multiReduction .add [1] S1024 (shiftedExp S) 0x00000000#32 reduces_S1024x128_S1024 (.inl rfl) rfl

/-- The weights: each shifted exponential over its row's sum, the sum cast to a column and repeated along the row. -/
def softmaxRows : FVec Ideal S1024x128 .f32 :=
  divf (shiftedExp S) (broadcastTo S1024x128 (shapeCast S1024x1 (rowTotal S) shapeCasts_S1024_S1024x1) broadcasts_S1024x1_S1024x128)

theorem rowTop_apply (d : Fin 1024) : rowTop S (ix1 d) = rowMax (fun q => S (ix2 d q)) := by
  unfold rowTop
  rw [maximumf_apply]
  exact congrArg (max (Ideal.ofBits .f32 0xFF800000#32)) (rowMax_apply S _ reduces_S1024x128_S1024 _ _ d)

theorem shiftedExp_apply (d : Fin 1024) (q : Fin 128) : shiftedExp S (ix2 d q) = shifted (fun q' => S (ix2 d q')) q := by
  unfold shiftedExp
  show Ideal.exp (S (ix2 d q) - broadcastTo S1024x128 (shapeCast S1024x1 (rowTop S) shapeCasts_S1024_S1024x1) broadcasts_S1024x1_S1024x128 (ix2 d q)) = _
  rw [broadcastTo_a1_ab_apply, shapeCast_a_a1_apply, rowTop_apply]
  rfl

theorem rowTotal_apply (d : Fin 1024) : rowTotal S (ix1 d) = ∑ q : Fin 128, shifted (fun q' => S (ix2 d q')) q := by
  unfold rowTotal
  refine (rowSum_apply (shiftedExp S) _ reduces_S1024x128_S1024 _ _ d).trans ?_
  exact Finset.sum_congr rfl fun q _ => shiftedExp_apply S d q

theorem softmaxRows_apply (d : Fin 1024) (q : Fin 128) : softmaxRows S (ix2 d q) = weight (fun q' => S (ix2 d q')) q := by
  unfold softmaxRows
  rw [divf_apply, shiftedExp_apply, broadcastTo_a1_ab_apply, shapeCast_a_a1_apply, rowTotal_apply]
  rfl

/-! ## The three payloads -/

/-- The weights block is the score block with each row normalised. -/
theorem pay2_eq : k0_pay2 v0 v2 v4 v12 = truncf .bf16 (softmaxRows (scoreBlock v0 v2 v4 v12)) bitsLt_bf16_f32 := rfl

/-- The weights block at `(d, q)`: the weight of query token `q` for document token `d`. -/
theorem pay2_apply (d : Fin 1024) (q : Fin 128) :
    k0_pay2 v0 v2 v4 v12 (ix2 d q)
      = weight (scores (fun h k => v0 (ix2 h k)) (fun h => v2 (ix2 (0 : Fin 1) h)) (fun k => v4 (ix3 (0 : Fin 1) d k))
          (fun q k => v12 (ix3 (0 : Fin 1) q k))) q := by
  rw [pay2_eq, truncf_apply, softmaxRows_apply]
  exact congrArg (fun s => weight s q) (funext fun q' => scoreBlock_apply v0 v2 v4 v12 d q')

/-- The query block without its unit axis, at `(q, e)`. -/
theorem pay3_apply (q : Fin 128) (e : Fin 768) : k0_pay3 v12 (ix2 q e) = v12 (ix3 (0 : Fin 1) q e) := by
  show (truncf .bf16 (shapeCast S128x768 v12 shapeCasts_S1x128x768_S128x768) bitsLt_bf16_f32 : FVec Ideal S128x768 .bf16) (ix2 q e) = _
  rw [truncf_apply, shapeCast_1ab_ab_apply]

/-- What the body stores is the weights block times the query block, with the unit axis put back. -/
theorem pay1_eq (v34 : FVec Ideal S1024x128 .bf16) (v37 : FVec Ideal S128x768 .bf16) :
    k0_pay1 v34 v37 = shapeCast S1x1024x768 (matmul dot_S1024x128_S128x768_S1024x768_1_0_0_1_n_n none v34 v37
      (constant S1024x768 .f32 0x00000000#32)) shapeCasts_S1024x768_S1x1024x768 := rfl

theorem pay1_apply (v34 : FVec Ideal S1024x128 .bf16) (v37 : FVec Ideal S128x768 .bf16) (u : Fin 1) (d : Fin 1024) (e : Fin 768) :
    k0_pay1 v34 v37 (ix3 u d e) = ∑ q : Fin 128, v34 (ix2 d q) * v37 (ix2 q e) := by
  rw [pay1_eq, shapeCast_ab_1ab_apply]
  unfold matmul
  exact RowOps.matmul_zero_plain_apply dot_S1024x128_S128x768_S1024x768_1_0_0_1_n_n ⟨_, rfl⟩ none v34 v37 d e

/-- THE BODY'S STORE at `(u, d, e)`: entry `e` of document token `d` attending over the block's query tokens. -/
theorem store_apply (u : Fin 1) (d : Fin 1024) (e : Fin 768) :
    k0_pay1 (k0_pay2 v0 v2 v4 v12) (k0_pay3 v12) (ix3 u d e)
      = attend (fun h k => v0 (ix2 h k)) (fun h => v2 (ix2 (0 : Fin 1) h)) (fun k => v4 (ix3 (0 : Fin 1) d k))
          (fun q k => v12 (ix3 (0 : Fin 1) q k)) e := by
  rw [pay1_apply]
  unfold attend
  refine Finset.sum_congr rfl fun q _ => ?_
  rw [pay2_apply, pay3_apply]

end Cert.KernelIdeal.Body

end
-- ==== Proof.KernelValue.lean ====
/-
  From the blocks the grid points write back to the whole result array.

  The grid has one point per batch element. At point `t` the document window holds batch element `t` of the document
  array, the query window batch element `t` of the query array, the weight window the whole weight matrix, and the bias
  window the bias vector as the one row the host's reshape made of it; the point writes back batch element `t` of the
  result. So what point `t` writes is block `t` of the shared function (CrossAttention.lean) of the four argument
  arrays, the 32 blocks cover the result array, and the array after the run is that function.
-/
import proofs.«105087_j68616397521540_1_alg».proof.Proof.Gen.KernelIdeal.Value
import proofs.«105087_j68616397521540_1_alg».proof.Proof.BodyReads
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Cert.CrossAttention
open Idealize.ShloMosaic.ValueIdx Idealize.ShloMosaic.RowDots

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## One block of the result -/

/-- The body's store, over any blocks that hold batch element `n` of the document and query arrays, the weight matrix and
    the bias as one row: at an index `y` of the block it is the shared function at the array index `i` with `y`'s token and
    entry in batch element `n`. -/
theorem block_value (x0 : Vec Ideal S1x1024x768 .f32) (x1 : Vec Ideal S1x128x768 .f32) (x2 : Vec Ideal S768x768 .f32)
    (x3 : Vec Ideal S1x768 .f32) (doc : S32x1024x768.Idx → EReal) (qry : S32x128x768.Idx → EReal) (W : S768x768.Idx → EReal)
    (bias : S768.Idx → EReal) (n : Fin 32)
    (h0 : ∀ (d : Fin 1024) (k : Fin 768), x0 (ix3 (0 : Fin 1) d k) = doc (ix3 n d k))
    (h1 : ∀ (q : Fin 128) (k : Fin 768), x1 (ix3 (0 : Fin 1) q k) = qry (ix3 n q k))
    (h2 : ∀ h k : Fin 768, x2 (ix2 h k) = W (ix2 h k))
    (h3 : ∀ h : Fin 768, x3 (ix2 (0 : Fin 1) h) = bias (ix1 h))
    (y : S1x1024x768.Idx) (i : S32x1024x768.Idx) (hi0 : (i 0).val = n.val) (hi1 : (i 1).val = (y 1).val)
    (hi2 : (i 2).val = (y 2).val) :
    k0_pay1 (k0_pay2 x2 x3 x0 x1) (k0_pay3 x1) y = result doc qry W bias i := by
  obtain ⟨u, d, e, rfl⟩ : ∃ (u : Fin 1) (d : Fin 1024) (e : Fin 768), y = ix3 u d e := ⟨y 0, y 1, y 2, eq_ix3 y⟩
  obtain rfl : i = ix3 n d e := idx3_ext _ _ _ _ hi0 hi1 hi2
  rw [Body.store_apply, result_ix3]
  unfold resultAt
  have e0 : (fun k => x0 (ix3 (0 : Fin 1) d k)) = docToken doc n d := funext fun k => h0 d k
  have e1 : (fun q k => x1 (ix3 (0 : Fin 1) q k)) = qryTokens qry n := funext fun q => funext fun k => h1 q k
  have e2 : (fun h k => x2 (ix2 h k)) = weights W := funext fun h => funext fun k => h2 h k
  have e3 : (fun h => x3 (ix2 (0 : Fin 1) h)) = biases bias := funext fun h => h3 h
  rw [e0, e1, e2, e3]

/-! ## The windows' blocks at a point -/

/-- The grid's points are the 32 batch elements. -/
theorem point_lt (t : Fin cfg0.N) : t.val < 32 :=
  Nat.lt_of_lt_of_eq t.isLt (N_0 : cfg0.N = 32)

/-- The printed index maps, decided over the grid: the document, query and result windows are at block `t` of their
    first axis and block 0 of the others; the weight and bias windows are at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0) :=
  (by decide +kernel : ∀ t : Fin grid0.N, _)

/-- The document window's block at point `t` is batch element `t` of the document array. -/
theorem doc_block (c : Dev nD) (t : Fin cfg0.N) (d : Fin 1024) (k : Fin 768) :
    (iblk m c 0 t : Vec Ideal S1x1024x768 .f32) (ix3 (0 : Fin 1) d k)
      = (m ((c : Thread nD τ).loc main_arg0) : S32x1024x768.Idx → EReal) (ix3 (⟨t.val, point_lt t⟩ : Fin 32) d k) := by
  obtain ⟨⟨e0, e1, e2⟩, -⟩ := idx_facts t
  unfold iblk
  rw [View.read_apply]
  show V m c main_arg0 _ = _
  rw [V_main_arg0]
  refine congrArg _ (idx3_ext _ _ _ _ ?_ ?_ ?_)
  · show win0_0.index t (0 : Fin 3) * 1 + 1 * 0 = t.val; omega
  · show win0_0.index t (1 : Fin 3) * 1024 + 1 * d.val = d.val; omega
  · show win0_0.index t (2 : Fin 3) * 768 + 1 * k.val = k.val; omega

/-- The query window's block at point `t` is batch element `t` of the query array. -/
theorem qry_block (c : Dev nD) (t : Fin cfg0.N) (q : Fin 128) (k : Fin 768) :
    (iblk m c 1 t : Vec Ideal S1x128x768 .f32) (ix3 (0 : Fin 1) q k)
      = (m ((c : Thread nD τ).loc main_arg1) : S32x128x768.Idx → EReal) (ix3 (⟨t.val, point_lt t⟩ : Fin 32) q k) := by
  obtain ⟨-, ⟨e0, e1, e2⟩, -⟩ := idx_facts t
  unfold iblk
  rw [View.read_apply]
  show V m c main_arg1 _ = _
  rw [V_main_arg1]
  refine congrArg _ (idx3_ext _ _ _ _ ?_ ?_ ?_)
  · show win0_1.index t (0 : Fin 3) * 1 + 1 * 0 = t.val; omega
  · show win0_1.index t (1 : Fin 3) * 128 + 1 * q.val = q.val; omega
  · show win0_1.index t (2 : Fin 3) * 768 + 1 * k.val = k.val; omega

/-- The weight window's block at every point is the weight matrix. -/
theorem weight_block (c : Dev nD) (t : Fin cfg0.N) (h k : Fin 768) :
    (iblk m c 2 t : Vec Ideal S768x768 .f32) (ix2 h k)
      = (m ((c : Thread nD τ).loc main_arg2) : S768x768.Idx → EReal) (ix2 h k) := by
  obtain ⟨-, -, ⟨e0, e1⟩, -⟩ := idx_facts t
  unfold iblk
  rw [View.read_apply]
  show V m c main_arg2 _ = _
  rw [V_main_arg2]
  refine congrArg _ (idx2_ext _ _ _ ?_ ?_)
  · show win0_2.index t (0 : Fin 2) * 768 + 1 * h.val = h.val; omega
  · show win0_2.index t (1 : Fin 2) * 768 + 1 * k.val = k.val; omega

/-- The array the bias window stages is the host's reshape of the bias vector to one row. -/
theorem bias_row (c : Dev nD) :
    (V m c main_v0 : S1x768.Idx → EReal)
      = shapeCast S1x768 (m ((c : Thread nD τ).loc main_arg3) : S768.Idx → EReal) shapeCasts_S768_S1x768 := by
  dsimp only [V, hostOps0]
  after_results
  rfl

/-- The bias window's block at every point is the bias vector as one row. -/
theorem bias_block (c : Dev nD) (t : Fin cfg0.N) (h : Fin 768) :
    (iblk m c 3 t : Vec Ideal S1x768 .f32) (ix2 (0 : Fin 1) h)
      = (m ((c : Thread nD τ).loc main_arg3) : S768.Idx → EReal) (ix1 h) := by
  obtain ⟨-, -, -, ⟨e0, e1⟩, -⟩ := idx_facts t
  unfold iblk
  rw [View.read_apply]
  show (V m c main_v0 : S1x768.Idx → EReal) _ = _
  rw [bias_row]
  refine Eq.trans (congrArg _ (idx2_ext _ (0 : Fin 1) h ?_ ?_)) (shapeCast_a_1a_apply _ _ (0 : Fin 1) h)
  · show win0_3.index t (0 : Fin 2) * 1 + 1 * 0 = 0; omega
  · show win0_3.index t (1 : Fin 2) * 768 + 1 * h.val = h.val; omega

/-! ## What a point writes back, the cover, and the array -/

/-- The shared function of the argument arrays as launched. -/
abbrev resultOf (c : Dev nD) : S32x1024x768.Idx → EReal :=
  result (m ((c : Thread nD τ).loc main_arg0)) (m ((c : Thread nD τ).loc main_arg1)) (m ((c : Thread nD τ).loc main_arg2))
    (m ((c : Thread nD τ).loc main_arg3))

/-- WHAT POINT `t` WRITES BACK is block `t` of the shared function of the argument arrays. -/
theorem flushed_eq (c : Dev nD) (t : Fin cfg0.N) :
    (dats m 0 c).flushed 4 t = ((cfg0.win 4).blk t).view.read (Elt Ideal) (resultOf m c) := by
  rw [flushed4]
  unfold out0_4
  rw [View.canon_unit_zero zeros3]
  simp only [View.ld_unit_zero (S := S768x768) zeros2, View.ld_unit_zero (S := S1x768) zeros2,
    View.ld_unit_zero (S := S1x1024x768) zeros3, View.ld_unit_zero (S := S1x128x768) zeros3]
  obtain ⟨-, -, -, -, ⟨e0, e1, e2⟩⟩ := idx_facts t
  funext y
  show k0_pay1 (k0_pay2 (iblk m c 2 t) (iblk m c 3 t) (iblk m c 0 t) (iblk m c 1 t)) (k0_pay3 (iblk m c 1 t)) y
    = resultOf m c (((cfg0.win 4).blk t).view.emb y)
  refine block_value (iblk m c 0 t) (iblk m c 1 t) (iblk m c 2 t) (iblk m c 3 t) _ _ _ _ (⟨t.val, point_lt t⟩ : Fin 32)
    (doc_block m c t) (qry_block m c t) (weight_block m c t) (bias_block m c t) y _ ?_ ?_ ?_
  · show win0_4.index t (0 : Fin 3) * 1 + 1 * (y 0).val = t.val
    have hy : (y 0).val < 1 := (y 0).isLt
    omega
  · show win0_4.index t (1 : Fin 3) * 1024 + 1 * (y 1).val = (y 1).val; omega
  · show win0_4.index t (2 : Fin 3) * 768 + 1 * (y 2).val = (y 2).val; omega

/-- An index of the result array is in point `t`'s block iff each coordinate is in the block's range on its axis. -/
theorem mem_blk (t : Fin cfg0.N) (i : S32x1024x768.Idx) :
    i ∈ ((cfg0.win 4).blk t).view.set ↔ ∀ a : Fin 3, win0_4.index t a * S1x1024x768.size a ≤ (i a).val
      ∧ (i a).val < win0_4.index t a * S1x1024x768.size a + S1x1024x768.size a := by
  show i ∈ ((View.whole main_v1).slice (win0_4.rect t)).set ↔ _
  rw [View.set_slice_whole, Rect.mem_set_unit]
  exact Iff.rfl

/-- Every index of the result array is in the block of the point of its batch element. -/
theorem cover (i : S32x1024x768.Idx) :
    ∃ t : Fin cfg0.N, (cfg0.win 4).flush t = true ∧ i ∈ ((cfg0.win 4).blk t).view.set := by
  have hi0 : (i 0).val < 32 := (i 0).isLt
  have hi1 : (i 1).val < 1024 := (i 1).isLt
  have hi2 : (i 2).val < 768 := (i 2).isLt
  obtain ⟨t, ht⟩ : ∃ t : Fin cfg0.N, t.val = (i 0).val :=
    ⟨⟨(i 0).val, by rw [show cfg0.N = 32 from N_0]; exact hi0⟩, rfl⟩
  obtain ⟨-, -, -, -, ⟨e0, e1, e2⟩⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 768 ≤ (i 2).val ∧ (i 2).val < win0_4.index t (2 : Fin 3) * 768 + 768; omega

/-- THE RESULT ARRAY after the run is the shared function of the argument arrays. -/
theorem final (c : Dev nD) : (dats m 0 c).arrAt 4 cfg0.N = resultOf m c :=
  (dats m 0 c).arrAt_eq_of_cover 4 (resultOf m c) (fun t _ => flushed_eq m c t) cover

/-- The kernel's run, read: the result array at the shared function of the arguments, the arguments unchanged. -/
theorem run : θ_run defs (onTc (τ := τ) (main (F := Ideal))) ⟨m, fun _ => 0, ρ⟩ fun r => ∀ c : Dev nD,
      r.2.mem ((c : Thread nD τ).loc main_v1) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.KernelIdeal.ArrayValue

end
-- ==== Proof.ReferenceReads.lean ====
/-
  The reference, read one stage at a time into the shared function (CrossAttention.lean).

  The reference works on whole arrays: two products of the tokens with the transposed weight matrix, each followed by
  the bias and the clamp; a batched product of the two hidden arrays along their hidden axes (the scores); a maximum
  and a sum along the query axis, each put back on a unit axis and repeated along it; and a batched product of the
  weights with the query tokens. Read at an index, every stage is the corresponding piece of the shared function at
  that index's coordinates: a product is a sum over the contracted coordinate, a repeated array reads its source where
  the unit axis was, the maximum is the fold of `max` over the query coordinate, and the sum's initial value is zero.
-/
import proofs.«105087_j68616397521540_1_alg».proof.Proof.Gen.ReferenceIdeal.Read
import proofs.«105087_j68616397521540_1_alg».proof.Proof.CrossAttention
import proofs.«105087_j68616397521540_1_alg».proof.Proof.LibRowDots

noncomputable section

open scoped BigOperators

namespace Cert.ReferenceIdeal.RefValue

open Cert.ReferenceIdeal Cert.ReferenceIdeal.Gen Cert.ReferenceIdeal.Read Cert.CrossAttention
open Idealize.ShloMosaic Idealize.ShloMosaic.ValueIdx Idealize.ShloMosaic.RowDots

variable (x0 : (⟨S32x1024x768, .f32⟩ : BufTy).Contents (Elt Ideal)) (x1 : (⟨S32x128x768, .f32⟩ : BufTy).Contents (Elt Ideal))
  (x2 : (⟨S768x768, .f32⟩ : BufTy).Contents (Elt Ideal)) (x3 : (⟨S768, .f32⟩ : BufTy).Contents (Elt Ideal))

/-- The document tokens' hidden array at `(n, d, h)`: coordinate `h` of the layer applied to document token `d`. -/
theorem hidden_doc (n : Fin 32) (d : Fin 1024) (h : Fin 768) :
    val_main_v4 (F := Ideal) x0 x2 x3 (ix3 n d h) = hidden (weights x2) (biases x3) (docToken x0 n d) h := by
  rw [val_main_v4_apply, val_main_v3_apply, val_main_v0_apply, val_main_v2_apply, val_main_v1_apply,
    val_main_call0_v0_apply, val_main_call0_cst_apply]
  have el : ∀ k : Fin 768, lidx_main_v0 (ix3 n d h) k = ix3 n d k := fun k => idx3_ext _ _ _ _ rfl rfl rfl
  have er : ∀ k : Fin 768, ridx_main_v0 (ix3 n d h) k = ix2 h k := fun k => idx2_ext _ _ _ rfl rfl
  have eb : idx_main_v1 (idx_main_v2 (ix3 n d h)) = ix1 h := idx1_ext _ _ rfl
  simp only [el, er, eb]
  rfl

/-- The query tokens' hidden array at `(n, q, h)`: coordinate `h` of the layer applied to query token `q`. -/
theorem hidden_qry (n : Fin 32) (q : Fin 128) (h : Fin 768) :
    val_main_v9 (F := Ideal) x1 x2 x3 (ix3 n q h) = hidden (weights x2) (biases x3) (qryTokens x1 n q) h := by
  rw [val_main_v9_apply, val_main_v8_apply, val_main_v5_apply, val_main_v7_apply, val_main_v6_apply,
    val_main_call1_v0_apply, val_main_call1_cst_apply]
  have el : ∀ k : Fin 768, lidx_main_v5 (ix3 n q h) k = ix3 n q k := fun k => idx3_ext _ _ _ _ rfl rfl rfl
  have er : ∀ k : Fin 768, ridx_main_v5 (ix3 n q h) k = ix2 h k := fun k => idx2_ext _ _ _ rfl rfl
  have eb : idx_main_v6 (idx_main_v7 (ix3 n q h)) = ix1 h := idx1_ext _ _ rfl
  simp only [el, er, eb]
  rfl

/-- The scores array at `(n, d, q)`: document token `d` against query token `q`. -/
theorem scores_eq (n : Fin 32) (d : Fin 1024) (q : Fin 128) :
    val_main_v10 (F := Ideal) x0 x1 x2 x3 (ix3 n d q)
      = scores (weights x2) (biases x3) (docToken x0 n d) (qryTokens x1 n) q := by
  rw [val_main_v10_apply]
  unfold scores score
  refine Finset.sum_congr rfl fun k _ => ?_
  rw [show lidx_main_v10 (ix3 n d q) k = ix3 n d k from idx3_ext _ _ _ _ rfl rfl rfl,
    show ridx_main_v10 (ix3 n d q) k = ix3 n q k from idx3_ext _ _ _ _ rfl rfl rfl, hidden_doc, hidden_qry]

/-- The maximum along the query axis at `(n, d)`: the largest score of document token `d`. -/
theorem rowMax_eq (n : Fin 32) (d : Fin 1024) :
    val_main_v13 (F := Ideal) x0 x1 x2 x3 (ix2 n d)
      = rowMax (scores (weights x2) (biases x3) (docToken x0 n d) (qryTokens x1 n)) := by
  rw [val_main_v13_apply, val_main_v12_apply, val_main_cst_0_apply]
  unfold val_main_v11
  rw [hostReduceMax_last3_apply (val_main_v10 (F := Ideal) x0 x1 x2 x3) (val_main_cst (F := Ideal))
    reducesTo_S32x1024x128_S32x1024_d2 (by decide) h_S_ n d]
  simp only [scores_eq]
  rfl

/-- The shifted exponentials at `(n, d, q)`. -/
theorem shifted_eq (n : Fin 32) (d : Fin 1024) (q : Fin 128) :
    val_main_v17 (F := Ideal) x0 x1 x2 x3 (ix3 n d q)
      = shifted (scores (weights x2) (biases x3) (docToken x0 n d) (qryTokens x1 n)) q := by
  rw [val_main_v17_apply, val_main_v16_apply, val_main_v15_apply, val_main_v14_apply, scores_eq,
    show idx_main_v14 (idx_main_v15 (ix3 n d q)) = ix2 n d from idx2_ext _ _ _ rfl rfl, rowMax_eq]
  rfl

/-- The sum along the query axis at `(n, d)`: the sum of the row's shifted exponentials (the initial value is zero). -/
theorem rowSum_eq (n : Fin 32) (d : Fin 1024) :
    val_main_v18 (F := Ideal) x0 x1 x2 x3 (ix2 n d)
      = ∑ q : Fin 128, shifted (scores (weights x2) (biases x3) (docToken x0 n d) (qryTokens x1 n)) q := by
  rw [val_main_v18_apply, val_main_cst_1_apply]
  show Ideal.ofBits .f32 0x00000000#32 + _ = _
  rw [Ideal.ofBits_zero_f32, zero_add]
  refine Finset.sum_congr rfl fun k _ => ?_
  rw [show idx_main_v18 (ix2 n d) k = ix3 n d k from idx3_ext _ _ _ _ rfl rfl rfl, shifted_eq]

/-- The weights array at `(n, d, q)`. -/
theorem weight_eq (n : Fin 32) (d : Fin 1024) (q : Fin 128) :
    val_main_v21 (F := Ideal) x0 x1 x2 x3 (ix3 n d q)
      = weight (scores (weights x2) (biases x3) (docToken x0 n d) (qryTokens x1 n)) q := by
  rw [val_main_v21_apply, shifted_eq, val_main_v20_apply, val_main_v19_apply,
    show idx_main_v19 (idx_main_v20 (ix3 n d q)) = ix2 n d from idx2_ext _ _ _ rfl rfl, rowSum_eq]
  rfl

/-- The reference's last stage is the shared function of the four argument arrays. -/
theorem result_eq : val_main_v22 (F := Ideal) x0 x1 x2 x3 = result x0 x1 x2 x3 := by
  funext i
  obtain ⟨n, d, e, rfl⟩ : ∃ (n : Fin 32) (d : Fin 1024) (e : Fin 768), i = ix3 n d e := ⟨i 0, i 1, i 2, eq_ix3 i⟩
  rw [val_main_v22_apply, result_ix3]
  unfold resultAt attend
  refine Finset.sum_congr rfl fun k _ => ?_
  rw [show lidx_main_v22 (ix3 n d e) k = ix3 n d k from idx3_ext _ _ _ _ rfl rfl rfl,
    show ridx_main_v22 (ix3 n d e) k = ix3 n k e from idx3_ext _ _ _ _ rfl rfl rfl, weight_eq]

end Cert.ReferenceIdeal.RefValue

end
-- ==== Proof.lean ====
/-
  A document-to-query attention block and its reference compute one function.

  For each of 32 batch elements there are 1024 document tokens and 128 query tokens of 768 numbers each. Every token
  goes through one shared layer, `max (W x + bias) 0`. A document token's scores against the query tokens are the inner
  products of the hidden vectors; the scores of one document token are turned into weights by the exponential of each
  score less the largest, divided by the sum of those exponentials; and the token's output is the weighted sum of the
  query tokens. The kernel does this one batch element per grid point, on blocks with the batch axis dropped, with its
  operands narrowed to bf16 before each product; the reference does it on the whole arrays with batched products.

  Over the extended reals the narrowing is the identity, each product is the sum over the contracted coordinate, and
  the two programs perform the same operations on the same numbers in the same order, entry by entry: no sum is
  regrouped and no factor moved, so nothing is asked of the inputs' finiteness. Proof/CrossAttention.lean states the
  function once; Proof/ReferenceReads.lean reads the reference's stages into it, Proof/BodyReads.lean the kernel's body at
  a grid point, Proof/KernelValue.lean carries the body's blocks to the whole result array. The three programs run to
  completion with their arguments unchanged by the generated frames (the reference's is its generated run), and the
  kernel's idealization rewrote nothing, so its faithfulness clause is empty.
-/
import proofs.«105087_j68616397521540_1_alg».proof.Defs
import proofs.«105087_j68616397521540_1_alg».proof.Proof.Gen.Kernel
import proofs.«105087_j68616397521540_1_alg».proof.Proof.Gen.Kernel.Frame
import proofs.«105087_j68616397521540_1_alg».proof.Proof.Gen.KernelIdeal
import proofs.«105087_j68616397521540_1_alg».proof.Proof.Gen.KernelIdeal.Frame
import proofs.«105087_j68616397521540_1_alg».proof.Proof.Gen.KernelIdeal.Value
import proofs.«105087_j68616397521540_1_alg».proof.Proof.Gen.ReferenceIdeal
import proofs.«105087_j68616397521540_1_alg».proof.Proof.Gen.ReferenceIdeal.Run
import proofs.«105087_j68616397521540_1_alg».proof.Proof.Gen.ReferenceIdeal.Read
import proofs.«105087_j68616397521540_1_alg».proof.Proof.Gen.Pre_finite_inputs
import proofs.«105087_j68616397521540_1_alg».proof.Proof.KernelValue
import proofs.«105087_j68616397521540_1_alg».proof.Proof.ReferenceReads
import Idealize.ShloMosaic.Adequacy
import Idealize.ShloMosaic.Init

noncomputable section

namespace Cert.Proof

open Idealize.ShloMosaic Idealize.SL.Sem

/-- The kernel as printed runs to completion and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to state. -/
theorem preserves : Cert.preserves_Kernel_KernelIdeal := trivial

/-- From memories that agree on the four arguments, the kernel's result array and the reference's both end at the
    attention function of those arguments. -/
theorem algebraic : Cert.algebraic_KernelIdeal_ReferenceIdeal := by
  intro m ρ m' ρ' _ hagree
  refine ⟨fun c => Cert.KernelIdeal.ArrayValue.resultOf m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
